-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x512 : Shape := ⟨2, ![4096, 512]⟩
abbrev S1x512 : Shape := ⟨2, ![1, 512]⟩
abbrev S512 : Shape := ⟨1, ![512]⟩
abbrev S512x1 : Shape := ⟨2, ![512, 1]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S256x4096, .f32⟩
  | .local _ .vmem, ⟨7, _⟩ => ⟨S256x4096, .f32⟩
  | .local _ .vmem, ⟨8, _⟩ => ⟨S4096x4096, .bf16⟩
  | .local _ .vmem, ⟨9, _⟩ => ⟨S1x4096, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  transposes_S512x4096_p1_0_S4096x512 : S512x4096.Transposes [1, 0] S4096x512
  inb_S4096x512_S4096x512_0_0 : ∀ a, (![0, 0] : Fin 2 → Nat) a + S4096x512.size a ≤ S4096x512.size a
  h_S4096x512 : 0 < S4096x512.numel
  packedbf16_S4096x512_S4096x512_0_0 : (Rect.unit (s := S4096x512) ![0, 0] S4096x512.size inb_S4096x512_S4096x512_0_0).PackedRows (EltTy.packing .bf16)
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S8192x4096.size a
  hwx1_4 : ∀ i : grid1.Coords, EltTy.bits .f32 = 32 ∨ (Rect.block (s := S8192x4096) S256x4096.size (cc1_transform_4 i) (hinb1_4 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4096x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4x2048x4096, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S1x1x4096, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S_, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x4096, .f32⟩
  | .hbm, ⟨51, _⟩ => ⟨S4x2048x4096, .f32⟩
  | .hbm, ⟨52, _⟩ => ⟨S4x2048x4096, .f32⟩
  | .hbm, ⟨53, _⟩ => ⟨S4x2048x4096, .f32⟩
  | .hbm, ⟨54, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call2_v0 : Ref sig .tc := ⟨.hbm, 24, rfl⟩
abbrev main_call2_v1 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_call4_v0 : Ref sig .tc := ⟨.hbm, 44, rfl⟩
abbrev main_call4_v1 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRun.lean ====
/-
  The whole program's run, with the result array named.

  The program is: the weight-quantisation region; two reshapes (activations [4, 2048, 4096] to [8192, 4096], bias [4096] to
  [1, 4096]); the fused region; one reshape of its [8192, 4096] output back to [4, 2048, 4096]. Every weakly fair execution
  terminates with the result array at the last boundary's contents of that buffer and the three arguments unchanged.
-/
import proofs.«127962_j82489141887066_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments from the launch memory: the final state holds every unscoped buffer at the last boundary's
    contents, so the result buffer reads those contents and each argument reads back to the launch memory. -/
theorem run_named : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.Consts.lean ====
/-
  The three float constants of the fake-quantisation, as the extended reals they denote.

  The quantisation range 127.0 is the real 127; the floor 1e-5 under a row's largest magnitude is a positive real
  (the nearest single-precision number to 1/100000, namely 10995116 · 2⁻⁴⁰); and the start value of a running
  maximum, minus infinity, is the bottom element.
-/
import Idealize.ShloMosaic.PureOps.Ideal
import Mathlib.Tactic

noncomputable section

namespace Cert.QuantConsts

open Idealize.ShloMosaic

/-- The word of 127.0 denotes the real 127. -/
theorem ofBits_127 : Ideal.ofBits .f32 0x42FE0000#32 = ((127 : ℝ) : EReal) := by
  simp [Ideal.ofBits, Ideal.ieee, -EReal.coe_mul]; norm_num

/-- The word of the floor 1e-5 denotes a positive real. -/
theorem ofBits_floor : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The word of minus infinity denotes the bottom element. -/
theorem ofBits_neg_inf : Ideal.ofBits .f32 0xFF800000#32 = (⊥ : EReal) := by
  simp [Ideal.ofBits, Ideal.ieee]

end Cert.QuantConsts

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.Spec.lean ====
/-
  Fake-quantised linear layer: the specification, and the law that joins its two arrangements.

  A row r of numbers has a largest magnitude amax r = max_j |r_j|, a quantisation step
  step r = max(amax r, 1e-5) / 127, and each entry v an integer level round(v / step r) (to nearest, ties to even).

  For one token (a row x of K activations), N output channels (rows W o of K weights) and a bias, the output before
  its own quantisation can be arranged in two ways:

    integer product first:   ((∑_i level x_i · level W_{o,i}) · step x) · step (W o) + bias o
    dequantise first:        (∑_i (level x_i · step x) · (level W_{o,i} · step (W o))) + bias o

  and the result is the row quantisation  level y_o · step y  of that output row y.  When every activation and every
  weight is a real number, all steps are positive reals and all levels are reals, so the two arrangements agree by
  distributivity in the real numbers; the final quantisation is the same function of the row on both sides.
-/
import Idealize.ShloMosaic.PureOps.Ideal
import Idealize.ShloMosaic.Lib.ValueIdx
import proofs.«127962_j82489141887066_2_alg».proof.Proof.Consts
import proofs.«127962_j82489141887066_2_alg».proof.Proof.LibRealSums
import Mathlib.Tactic

noncomputable section

open scoped BigOperators

namespace Cert.FakeQuant

open Idealize.ShloMosaic Idealize.ShloMosaic.ValueIdx

/-- Rounding to the nearest integer, ties to even, on the extended reals (the infinities fixed). -/
abbrev rnd (x : EReal) : EReal := Ideal.liftRound Ideal.roundHalfEven x

/-- A row's largest magnitude: the running maximum of |r_j| from minus infinity. -/
def amax {n : Nat} (row : Fin n → EReal) : EReal :=
  (Finset.univ : Finset (Fin n)).fold max (Ideal.ofBits .f32 0xFF800000#32) (fun j => max (row j) (-(row j)))

/-- A row's quantisation step: its largest magnitude, floored at 1e-5, over 127. -/
def step {n : Nat} (row : Fin n → EReal) : EReal :=
  Ideal.div (max (amax row) (Ideal.ofBits .f32 0x3727C5AC#32)) (Ideal.ofBits .f32 0x42FE0000#32)

/-- An entry's integer level at a step. -/
def level (v s : EReal) : EReal := rnd (Ideal.div v s)

/-- The output row before its quantisation, integer product first. -/
def preInt {K N : Nat} (x : Fin K → EReal) (W : Fin N → Fin K → EReal) (bias : Fin N → EReal) (o : Fin N) : EReal :=
  ((∑ i : Fin K, level (x i) (step x) * level (W o i) (step (W o))) * step x) * step (W o) + bias o

/-- The output row before its quantisation, dequantised factors first. -/
def preDeq {K N : Nat} (x : Fin K → EReal) (W : Fin N → Fin K → EReal) (bias : Fin N → EReal) (o : Fin N) : EReal :=
  (∑ i : Fin K, (level (x i) (step x) * step x) * (level (W o i) (step (W o)) * step (W o))) + bias o

/-- A row's quantisation: each entry's level times the row's step. -/
def quant {n : Nat} (y : Fin n → EReal) (o : Fin n) : EReal := level (y o) (step y) * step y

/-! ## Real rows -/

/-- The running maximum from the bottom element over a nonempty family of reals is a real. -/
theorem fold_max_bot_real {ι : Type*} (s : Finset ι) (hs : s.Nonempty) (g : ι → ℝ) :
    ∃ r : ℝ, s.fold max (⊥ : EReal) (fun j => ((g j : ℝ) : EReal)) = (r : EReal) := by
  induction hs using Finset.Nonempty.cons_induction with
  | singleton a => exact ⟨g a, by rw [Finset.fold_singleton]; exact max_bot_right _⟩
  | cons a s ha _ ih =>
    obtain ⟨r, hr⟩ := ih
    exact ⟨max (g a) r, by rw [Finset.fold_cons, hr]; exact Cert.RealSums.coe_max _ _⟩

/-- The largest magnitude of a nonempty row of reals is a real. -/
theorem amax_real {n : Nat} (hn : 0 < n) (row : Fin n → EReal) (h : ∀ j, ∃ r : ℝ, row j = (r : EReal)) :
    ∃ r : ℝ, amax row = (r : EReal) := by
  choose g hg using h
  have e : (fun j => max (row j) (-(row j))) = fun j => (((max (g j) (-(g j)) : ℝ)) : EReal) := funext fun j => by
    rw [hg j, ← EReal.coe_neg, Cert.RealSums.coe_max]
  unfold amax
  rw [Cert.QuantConsts.ofBits_neg_inf, e]
  exact fold_max_bot_real _ ⟨⟨0, hn⟩, Finset.mem_univ _⟩ _

/-- The step of a nonempty row of reals is a positive real. -/
theorem step_pos_real {n : Nat} (hn : 0 < n) (row : Fin n → EReal) (h : ∀ j, ∃ r : ℝ, row j = (r : EReal)) :
    ∃ s : ℝ, 0 < s ∧ step row = (s : EReal) := by
  obtain ⟨a, ha⟩ := amax_real hn row h
  obtain ⟨e, he, hfl⟩ := Cert.QuantConsts.ofBits_floor
  refine ⟨max a e / 127, div_pos (lt_of_lt_of_le he (le_max_right _ _)) (by norm_num), ?_⟩
  unfold step
  rw [ha, hfl, Cert.QuantConsts.ofBits_127, Cert.RealSums.coe_max, Cert.RealSums.div_coe_coe _ (by norm_num : (127 : ℝ) ≠ 0)]

/-- The level of a real at a nonzero real step is a real. -/
theorem level_real (v s : ℝ) (hs : s ≠ 0) : ∃ z : ℝ, level (v : EReal) (s : EReal) = (z : EReal) :=
  ⟨((Ideal.roundHalfEven (v / s) : ℤ) : ℝ), by unfold level; rw [Cert.RealSums.div_coe_coe _ hs]; rfl⟩

/-! ## The two arrangements agree on real inputs -/

/-- Integer product first and dequantised factors first give the same output row, when the activations and the
    weights are reals (K ≥ 1): every level and every step is then a real, and the identity is distributivity. -/
theorem preInt_eq_preDeq {K N : Nat} (hK : 0 < K) (x : Fin K → EReal) (W : Fin N → Fin K → EReal) (bias : Fin N → EReal)
    (hx : ∀ i, ∃ r : ℝ, x i = (r : EReal)) (hW : ∀ o i, ∃ r : ℝ, W o i = (r : EReal)) :
    preInt x W bias = preDeq x W bias := by
  funext o
  obtain ⟨s, hs, es⟩ := step_pos_real hK x hx
  obtain ⟨u, hu, eu⟩ := step_pos_real hK (W o) (hW o)
  have hxl : ∀ i, ∃ z : ℝ, level (x i) (step x) = (z : EReal) := fun i => by
    obtain ⟨r, hr⟩ := hx i; rw [hr, es]; exact level_real r s hs.ne'
  have hwl : ∀ i, ∃ z : ℝ, level (W o i) (step (W o)) = (z : EReal) := fun i => by
    obtain ⟨r, hr⟩ := hW o i; rw [hr, eu]; exact level_real r u hu.ne'
  choose a ha using hxl
  choose b hb using hwl
  unfold preInt preDeq
  refine congrArg (· + bias o) ?_
  have e1 : (∑ i : Fin K, level (x i) (step x) * level (W o i) (step (W o))) = ((∑ i : Fin K, a i * b i : ℝ) : EReal) := by
    rw [← Cert.RealSums.coe_finset_sum]
    exact Finset.sum_congr rfl fun i _ => by rw [ha i, hb i, EReal.coe_mul]
  have e2 : (∑ i : Fin K, (level (x i) (step x) * step x) * (level (W o i) (step (W o)) * step (W o)))
      = ((∑ i : Fin K, (a i * s) * (b i * u) : ℝ) : EReal) := by
    rw [← Cert.RealSums.coe_finset_sum]
    exact Finset.sum_congr rfl fun i _ => by rw [ha i, hb i, es, eu, EReal.coe_mul, EReal.coe_mul, EReal.coe_mul]
  rw [e1, e2, es, eu, ← EReal.coe_mul, ← EReal.coe_mul]
  refine congrArg (fun r : ℝ => (r : EReal)) ?_
  rw [Finset.sum_mul, Finset.sum_mul]
  exact Finset.sum_congr rfl fun i _ => by ring

/-! ## The whole arrays

  Activations x[b, s, i] (4 × 2048 tokens of 4096 features), weights w[o, i] (4096 channels), bias[o]: the result at
  (b, s, o) is entry o of the quantised output row of token (b, s). -/

/-- The layer's result with the integer product taken first. -/
def outInt (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  fun j => quant (preInt (fun i : Fin 4096 => x (ix3 (j 0) (j 1) i)) (fun o i : Fin 4096 => w (ix2 o i))
    (fun o : Fin 4096 => bias (ix1 o))) (j 2)

/-- The layer's result with the factors dequantised first. -/
def outDeq (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  fun j => quant (preDeq (fun i : Fin 4096 => x (ix3 (j 0) (j 1) i)) (fun o i : Fin 4096 => w (ix2 o i))
    (fun o : Fin 4096 => bias (ix1 o))) (j 2)

/-- On real activations and weights the two results are one array. -/
theorem outInt_eq_outDeq (x : (⟨3, ![4, 2048, 4096]⟩ : Shape).Idx → EReal) (w : (⟨2, ![4096, 4096]⟩ : Shape).Idx → EReal)
    (bias : (⟨1, ![4096]⟩ : Shape).Idx → EReal) (hx : ∀ j, ∃ r : ℝ, x j = (r : EReal)) (hw : ∀ j, ∃ r : ℝ, w j = (r : EReal)) :
    outInt x w bias = outDeq x w bias := by
  funext j
  unfold outInt outDeq
  rw [preInt_eq_preDeq (by norm_num) _ _ _ (fun i => hx _) (fun o i => hw _)]

end Cert.FakeQuant

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.QuantRowOps.lean ====
/-
  The vector operations of a row quantisation, read at an index, for a block of any size a × b.

  The step column: the row maxima of |x| (a lane reduction from minus infinity), stood up as an a × 1 column,
  floored at 1e-5 and divided by 127, holds at (p, 0) the step of row p.  Dividing the block by that column spread over the
  b columns and rounding gives at (p, q) the level of x[p, q] at the column's entry (p, 0); multiplying the levels by the
  spread column again gives level · step.
-/
import proofs.«127962_j82489141887066_2_alg».proof.Proof.Spec
import proofs.«127962_j82489141887066_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.FakeQuant.RowOps

open Idealize.ShloMosaic Idealize.ShloMosaic.ValueIdx Cert.FakeQuant

variable {a b : Nat}

/-- The magnitude at an entry. -/
theorem absf_apply {s : Shape} {φ : FTy} (x : FVec Ideal s φ) (i : s.Idx) : absf x i = max (x i) (-(x i)) := rfl

/-- Rounding at an entry. -/
theorem roundeven_apply {s : Shape} {φ : FTy} (x : FVec Ideal s φ) (i : s.Idx) : roundeven x i = rnd (x i) := rfl

/-- The step column of a block: entry (p, 0) is the step of row p. -/
theorem stepCol_apply (x : FVec Ideal ⟨2, ![a, b]⟩ .f32)
    (h1 : (⟨2, ![a, b]⟩ : Shape).Reduces [1] (⟨1, ![a]⟩ : Shape)) (hφ : FKind.Formats .f32)
    (hacc : (0xFF800000#32 : BitVec 32) = FKind.maximumf.neutral .f32 hφ)
    (h2 : (⟨1, ![a]⟩ : Shape).ShapeCasts ⟨2, ![a, 1]⟩) (p : Fin a) :
    divf (maximumf (shapeCast ⟨2, ![a, 1]⟩ (multiReduction .maximumf [1] ⟨1, ![a]⟩ (absf x) 0xFF800000#32 h1 hφ hacc) h2)
        (broadcast ⟨2, ![a, 1]⟩ (Scalar.ofBits (F := Ideal) .f32 0x3727C5AC#32)))
      (broadcast ⟨2, ![a, 1]⟩ (Scalar.ofBits (F := Ideal) .f32 0x42FE0000#32)) (ix2 p (0 : Fin 1))
    = step (fun k : Fin b => x (ix2 p k)) := by
  unfold step amax
  rw [divf_apply, maximumf_apply, broadcast_apply, broadcast_apply, RowOps.colCast_apply, RowOps.rowMax_vector]
  rfl

/-- The levels of a block at a step column: entry (p, q) is the level of x[p, q] at the column's entry (p, 0). -/
theorem level_apply (x : FVec Ideal ⟨2, ![a, b]⟩ .f32) (col : FVec Ideal ⟨2, ![a, 1]⟩ .f32)
    (h3 : (⟨2, ![a, 1]⟩ : Shape).Broadcasts ⟨2, ![a, b]⟩) (p : Fin a) (q : Fin b) :
    roundeven (divf x (broadcastTo ⟨2, ![a, b]⟩ col h3)) (ix2 p q) = level (x (ix2 p q)) (col (ix2 p (0 : Fin 1))) := by
  unfold level
  rw [roundeven_apply, divf_apply, RowOps.colBcast_apply]

/-- Levels times steps: entry (p, q) is level · step with the step the column's entry (p, 0). -/
theorem levelStep_apply (y : FVec Ideal ⟨2, ![a, b]⟩ .f32) (col : FVec Ideal ⟨2, ![a, 1]⟩ .f32)
    (h3 : (⟨2, ![a, 1]⟩ : Shape).Broadcasts ⟨2, ![a, b]⟩) (p : Fin a) (q : Fin b) :
    mulf (roundeven (divf y (broadcastTo ⟨2, ![a, b]⟩ col h3))) (broadcastTo ⟨2, ![a, b]⟩ col h3) (ix2 p q)
      = level (y (ix2 p q)) (col (ix2 p (0 : Fin 1))) * col (ix2 p (0 : Fin 1)) := by
  rw [mulf_apply, level_apply, RowOps.colBcast_apply]

end Cert.FakeQuant.RowOps

end
-- ==== Proof.WeightPayload.lean ====
/-
  The weight-quantisation body on one block of 512 weight rows, read entry by entry.

  From a block x of 512 rows of 4096 weights the body computes each row's step (its largest magnitude, floored,
  over 127) as a column; stores, transposed, each weight's integer level at its row's step — entry (i, o) of the
  stored 4096 × 512 block is the level of x[o, i] at the step of row o —; and stores the steps as a row:
  entry (0, o) is the step of row o.
-/
import proofs.«127962_j82489141887066_2_alg».proof.Proof.Gen.KernelIdeal.Skeleton
import proofs.«127962_j82489141887066_2_alg».proof.Proof.QuantRowOps

noncomputable section

namespace Cert.KernelIdeal.WeightPayload

open Cert.KernelIdeal Cert.KernelIdeal.Gen Idealize.ShloMosaic Idealize.ShloMosaic.ValueIdx Cert.FakeQuant

/-- The step column: entry (o, 0) is the step of row o of the block. -/
theorem stepCol_apply (x : FVec Ideal S512x4096 .f32) (o : Fin 512) :
    k0_pay1 (F := Ideal) x (ix2 o (0 : Fin 1)) = step (fun k : Fin 4096 => x (ix2 o k)) := by
  unfold k0_pay1
  exact RowOps.stepCol_apply x _ _ _ _ o

/-- The stored quantised block, transposed: entry (i, o) is the level of x[o, i] at the step of row o. -/
theorem levelT_apply (x : FVec Ideal S512x4096 .f32) (i : Fin 4096) (o : Fin 512) :
    k0_pay2 (F := Ideal) x (ix2 i o) = level (x (ix2 o i)) (step (fun k : Fin 4096 => x (ix2 o k))) := by
  unfold k0_pay2
  rw [transpose_ix2_apply, truncf_apply, RowOps.level_apply, stepCol_apply]

/-- The stored step row: entry (0, o) is the step of row o. -/
theorem stepRow_apply (x : FVec Ideal S512x4096 .f32) (o : Fin 512) :
    k0_pay3 (F := Ideal) x (ix2 (0 : Fin 1) o) = step (fun k : Fin 4096 => x (ix2 o k)) := by
  unfold k0_pay3
  rw [transpose_ix2_apply, stepCol_apply]

end Cert.KernelIdeal.WeightPayload

end
-- ==== Proof.WeightRegion.lean ====
/-
  The weight-quantisation region: the two arrays it leaves, as functions of the weight array it finds.

  Grid point t takes weight rows 512·t … 512·t + 511 and writes columns 512·t … 512·t + 511 of the transposed integer
  weight and of the step row. The eight points' blocks tile both arrays, so after the region the transposed integer
  weight holds at (i, o) the level of w[o, i] at the step of weight row o, and the step row holds at (0, o) that step.
-/
import proofs.«127962_j82489141887066_2_alg».proof.Proof.Gen.KernelIdeal.Frame
import proofs.«127962_j82489141887066_2_alg».proof.Proof.WeightPayload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.WeightRegion

open Cert.KernelIdeal Cert.KernelIdeal.Gen Idealize.ShloMosaic.ValueIdx Cert.FakeQuant

variable (V : (c : Dev nD) → (b : Ref sig .tc) → Buf (Elt Ideal) ((c : Thread nD τ).loc b))

theorem hz : (![0, 0] : Fin 2 → Nat) = fun _ => 0 := funext fun a => by fin_cases a <;> rfl

/-- The level of w[r, i] at the step of weight row r. -/
def levelAt (w : S4096x4096.Idx → EReal) (r i : Fin 4096) : EReal := level (w (ix2 r i)) (step (fun k : Fin 4096 => w (ix2 r k)))

/-- The step of weight row r. -/
def stepAt (w : S4096x4096.Idx → EReal) (r : Fin 4096) : EReal := step (fun k : Fin 4096 => w (ix2 r k))

/-- The transposed integer weight, from the weight array as the region finds it. -/
def wq (c : Dev nD) : S4096x4096.Idx → EReal := fun j => levelAt (V c main_arg1) (j 1) (j 0)

/-- The step row, from the weight array as the region finds it. -/
def ws (c : Dev nD) : S1x4096.Idx → EReal := fun j => stepAt (V c main_arg1) (j 1)

/-- The printed index maps over the eight points: the input moves along rows, both outputs along columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val ∧ t.val < 8 :=
  (by decide +kernel : ∀ t : Fin grid0.N, _)

/-- Entry (o, k) of the input block at point t is the weight's entry (512·t + o, k). -/
theorem iblk_apply (c : Dev nD) (t : Fin cfg0.N) (o : Fin 512) (k : Fin 4096) (r : Fin 4096) (hr : r.val = t.val * 512 + o.val) :
    (iblk0 V c 0 t : FVec Ideal S512x4096 .f32) (ix2 o k) = (V c main_arg1 : S4096x4096.Idx → EReal) (ix2 r k) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 512 + 1 * o.val = r.val; rw [e0, hr]; omega
  | ⟨1, _⟩ => show win0_0.index t (1 : Fin 2) * 4096 + 1 * k.val = k.val; rw [e1]; omega

/-- What point t writes back of the transposed integer weight is block t of `wq`: entry (i, o') of the stored block is
    the level of weight row 512·t + o' at column i, and the block sits at columns 512·t … of the array. -/
theorem wrote_wq (c : Dev nD) (t : Fin cfg0.N) :
    (dat0 V c).flushed 1 t = ((cfg0.win 1).blk t).view.read (Elt Ideal) (wq V c) := by
  show (cfg0.win 1).cut (grid0.coords t) ((dat0 V c).after 1 t) = _
  rw [after0_1]
  unfold out0_1
  rw [View.canon_unit_zero hz]
  simp only [View.ld_unit_zero (S := S512x4096) hz]
  obtain ⟨-, -, e2, e3, -, -, ht⟩ := idx_facts t
  funext j
  have hj0 : (j 0).val < 4096 := (j 0).isLt
  have hj1 : (j 1).val < 512 := (j 1).isLt
  show k0_pay2 (F := Ideal) (iblk0 V c 0 t) j = wq V c (((cfg0.win 1).blk t).view.emb j)
  have ej : j = ix2 (⟨(j 0).val, hj0⟩ : Fin 4096) (⟨(j 1).val, hj1⟩ : Fin 512) :=
    funext fun a => by match a with | ⟨0, _⟩ => rfl | ⟨1, _⟩ => rfl
  refine (congrArg (k0_pay2 (F := Ideal) (iblk0 V c 0 t)) ej).trans ?_
  refine (WeightPayload.levelT_apply _ _ _).trans ?_
  have hr : ((⟨t.val * 512 + (j 1).val, by omega⟩ : Fin 4096)).val = t.val * 512 + ((⟨(j 1).val, hj1⟩ : Fin 512)).val := rfl
  simp only [iblk_apply V c t _ _ _ hr]
  have eo : (((cfg0.win 1).blk t).view.emb j) 1 = (⟨t.val * 512 + (j 1).val, by omega⟩ : Fin 4096) :=
    Fin.ext (by show win0_1.index t (1 : Fin 2) * 512 + 1 * (j 1).val = t.val * 512 + (j 1).val; rw [e3]; omega)
  have ei : (((cfg0.win 1).blk t).view.emb j) 0 = (⟨(j 0).val, hj0⟩ : Fin 4096) :=
    Fin.ext (by show win0_1.index t (0 : Fin 2) * 4096 + 1 * (j 0).val = (j 0).val; rw [e2, Nat.zero_mul, Nat.zero_add, Nat.one_mul])
  unfold wq levelAt
  rw [eo, ei]

/-- What point t writes back of the step row is block t of `ws`. -/
theorem wrote_ws (c : Dev nD) (t : Fin cfg0.N) :
    (dat0 V c).flushed 2 t = ((cfg0.win 2).blk t).view.read (Elt Ideal) (ws V c) := by
  show (cfg0.win 2).cut (grid0.coords t) ((dat0 V c).after 2 t) = _
  rw [after0_2]
  unfold out0_2
  rw [View.canon_unit_zero hz]
  simp only [View.ld_unit_zero (S := S512x4096) hz]
  obtain ⟨-, -, -, -, -, e5, ht⟩ := idx_facts t
  funext j
  have hj0 : (j 0).val < 1 := (j 0).isLt
  have hj1 : (j 1).val < 512 := (j 1).isLt
  show k0_pay3 (F := Ideal) (iblk0 V c 0 t) j = ws V c (((cfg0.win 2).blk t).view.emb j)
  have ej : j = ix2 (0 : Fin 1) (⟨(j 1).val, hj1⟩ : Fin 512) :=
    funext fun a => by
      match a with
      | ⟨0, _⟩ => exact Fin.ext (by show (j 0).val = 0; omega)
      | ⟨1, _⟩ => rfl
  refine (congrArg (k0_pay3 (F := Ideal) (iblk0 V c 0 t)) ej).trans ?_
  refine (WeightPayload.stepRow_apply _ _).trans ?_
  have hr : ((⟨t.val * 512 + (j 1).val, by omega⟩ : Fin 4096)).val = t.val * 512 + ((⟨(j 1).val, hj1⟩ : Fin 512)).val := rfl
  simp only [iblk_apply V c t _ _ _ hr]
  have eo : (((cfg0.win 2).blk t).view.emb j) 1 = (⟨t.val * 512 + (j 1).val, by omega⟩ : Fin 4096) :=
    Fin.ext (by show win0_2.index t (1 : Fin 2) * 512 + 1 * (j 1).val = t.val * 512 + (j 1).val; rw [e5]; omega)
  unfold ws stepAt
  rw [eo]

/-- An index of the transposed integer weight lies in point t's block iff each coordinate is in the block's range. -/
theorem mem_blk_wq (t : Fin cfg0.N) (i : S4096x4096.Idx) :
    i ∈ ((cfg0.win 1).blk t).view.set ↔ ∀ a : Fin 2, win0_1.index t a * S4096x512.size a ≤ (i a).val ∧ (i a).val < win0_1.index t a * S4096x512.size a + S4096x512.size a := by
  show i ∈ ((View.whole main_v0_0).slice (win0_1.rect t)).set ↔ _
  rw [View.set_slice_whole, Rect.mem_set_unit]
  exact Iff.rfl

/-- An index of the step row lies in point t's block iff each coordinate is in the block's range. -/
theorem mem_blk_ws (t : Fin cfg0.N) (i : S1x4096.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v0_1).slice (win0_2.rect t)).set ↔ _
  rw [View.set_slice_whole, Rect.mem_set_unit]
  exact Iff.rfl

/-- Column o of the transposed integer weight is written by point o / 512. -/
theorem cover_wq (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by rw [hN]; omega⟩, rfl⟩
  obtain ⟨-, -, e2, e3, -, -, -⟩ := idx_facts t
  refine ⟨t, flush0_1 t, ?_⟩
  rw [mem_blk_wq]
  intro a
  match a with
  | ⟨0, _⟩ => show win0_1.index t (0 : Fin 2) * 4096 ≤ (i 0).val ∧ (i 0).val < win0_1.index t (0 : Fin 2) * 4096 + 4096; rw [e2]; omega
  | ⟨1, _⟩ => show win0_1.index t (1 : Fin 2) * 512 ≤ (i 1).val ∧ (i 1).val < win0_1.index t (1 : Fin 2) * 512 + 512; rw [e3, ht]; omega

/-- Column o of the step row is written by point o / 512. -/
theorem cover_ws (i : S1x4096.Idx) : ∃ t : Fin cfg0.N, (cfg0.win 2).flush t = true ∧ i ∈ ((cfg0.win 2).blk t).view.set := by
  have hi0 : (i 0).val < 1 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, e4, e5, -⟩ := idx_facts t
  refine ⟨t, flush0_2 t, ?_⟩
  rw [mem_blk_ws]
  intro a
  match a with
  | ⟨0, _⟩ => show win0_2.index t (0 : Fin 2) * 1 ≤ (i 0).val ∧ (i 0).val < win0_2.index t (0 : Fin 2) * 1 + 1; rw [e4]; omega
  | ⟨1, _⟩ => show win0_2.index t (1 : Fin 2) * 512 ≤ (i 1).val ∧ (i 1).val < win0_2.index t (1 : Fin 2) * 512 + 512; rw [e5, ht]; omega

/-- After the region the transposed integer weight is `wq` of the weight array the region found. -/
theorem final_wq (c : Dev nD) : (dat0 V c).arrAt 1 cfg0.N = wq V c :=
  (dat0 V c).arrAt_eq_of_cover 1 (wq V c) (fun t _ => wrote_wq V c t) cover_wq

/-- After the region the step row is `ws` of the weight array the region found. -/
theorem final_ws (c : Dev nD) : (dat0 V c).arrAt 2 cfg0.N = ws V c :=
  (dat0 V c).arrAt_eq_of_cover 2 (ws V c) (fun t _ => wrote_ws V c t) cover_ws

end Cert.KernelIdeal.WeightRegion

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.FusedPayload.lean ====
/-
  The fused body on one block of 256 tokens, read entry by entry.

  From a block x of 256 token rows (4096 features each), the whole transposed integer weight q (4096 × 4096), the
  channels' step row s and the bias row β, the body forms each token's step and levels, the integer products
  ∑_k level x[p, k] · q[k, o], rescales them by the token's step and the channel's step, adds the bias — the token's
  output row before quantisation — and stores that row's quantisation: entry (p, o) of the stored block is
  level · step of the output row of token p, at o.
-/
import proofs.«127962_j82489141887066_2_alg».proof.Proof.Gen.KernelIdeal.Skeleton
import proofs.«127962_j82489141887066_2_alg».proof.Proof.QuantRowOps
import proofs.«127962_j82489141887066_2_alg».proof.Proof.LibPlainDot

noncomputable section

open scoped BigOperators

namespace Cert.KernelIdeal.FusedPayload

open Cert.KernelIdeal Cert.KernelIdeal.Gen Idealize.ShloMosaic Idealize.ShloMosaic.ValueIdx Cert.FakeQuant

/-- The step column of a 256 × 4096 block, as the body computes it. -/
abbrev stepColOf (y : FVec Ideal S256x4096 .f32) : FVec Ideal S256x1 .f32 :=
  divf (maximumf (shapeCast S256x1 (multiReduction .maximumf [1] S256 (absf y) 0xFF800000#32 Facts₀.reduces_S256x4096_S256 (.inl rfl) rfl) Facts₀.shapeCasts_S256_S256x1)
      (broadcast S256x1 (Scalar.ofBits (F := Ideal) .f32 0x3727C5AC#32)))
    (broadcast S256x1 (Scalar.ofBits (F := Ideal) .f32 0x42FE0000#32))

/-- Entry (p, 0) of the step column is the step of row p. -/
theorem stepColOf_apply (y : FVec Ideal S256x4096 .f32) (p : Fin 256) :
    stepColOf y (ix2 p (0 : Fin 1)) = step (fun k : Fin 4096 => y (ix2 p k)) :=
  RowOps.stepCol_apply y _ _ _ _ p

/-- The block of output rows before their quantisation, as the body computes it. -/
abbrev preOf (x : FVec Ideal S256x4096 .f32) (q : FVec Ideal S4096x4096 .bf16) (s β : FVec Ideal S1x4096 .f32) : FVec Ideal S256x4096 .f32 :=
  addf (mulf (mulf (matmul dot_S256x4096_S4096x4096_S256x4096_1_0_0_1_n_n none
          (truncf .bf16 (roundeven (divf x (broadcastTo S256x4096 (stepColOf x) Facts₀.broadcasts_S256x1_S256x4096))) Facts₀.bitsLt_bf16_f32) q
          (constant S256x4096 .f32 0x00000000#32))
        (broadcastTo S256x4096 (stepColOf x) Facts₀.broadcasts_S256x1_S256x4096))
      (broadcastTo S256x4096 s Facts₀.broadcasts_S1x4096_S256x4096))
    (broadcastTo S256x4096 β Facts₀.broadcasts_S1x4096_S256x4096)

/-- The payload is the row quantisation of `preOf`. -/
theorem pay_eq (x : FVec Ideal S256x4096 .f32) (q : FVec Ideal S4096x4096 .bf16) (s β : FVec Ideal S1x4096 .f32) :
    k1_pay1 (F := Ideal) x q s β
      = mulf (roundeven (divf (preOf x q s β) (broadcastTo S256x4096 (stepColOf (preOf x q s β)) Facts₀.broadcasts_S256x1_S256x4096)))
          (broadcastTo S256x4096 (stepColOf (preOf x q s β)) Facts₀.broadcasts_S256x1_S256x4096) := by
  unfold k1_pay1
  simp only [shapeCast_self]

/-- The output row of token p before its quantisation, at channel o: the integer product, rescaled by the token's step and
    the channel's step, plus the bias. -/
theorem preOf_apply (x : FVec Ideal S256x4096 .f32) (q : FVec Ideal S4096x4096 .bf16) (s β : FVec Ideal S1x4096 .f32)
    (p : Fin 256) (o : Fin 4096) :
    preOf x q s β (ix2 p o)
      = ((∑ k : Fin 4096, level (x (ix2 p k)) (step (fun i : Fin 4096 => x (ix2 p i))) * q (ix2 k o))
          * step (fun i : Fin 4096 => x (ix2 p i))) * s (ix2 (0 : Fin 1) o) + β (ix2 (0 : Fin 1) o) := by
  unfold preOf
  rw [addf_apply, mulf_apply, mulf_apply, broadcastTo_1b_ab_apply, broadcastTo_1b_ab_apply, RowOps.colBcast_apply, stepColOf_apply]
  simp only [matmul]
  rw [show dot_S256x4096_S4096x4096_S256x4096_1_0_0_1_n_n = DotDims.plain 256 4096 4096 from rfl, PlainDot.matmul_zero_apply]
  simp only [truncf_apply, RowOps.level_apply, stepColOf_apply]

/-- The stored block: entry (p, o) is the quantisation of token p's output row, at o. -/
theorem fused_apply (x : FVec Ideal S256x4096 .f32) (q : FVec Ideal S4096x4096 .bf16) (s β : FVec Ideal S1x4096 .f32)
    (p : Fin 256) (o : Fin 4096) :
    k1_pay1 (F := Ideal) x q s β (ix2 p o) = quant (fun o' : Fin 4096 => preOf x q s β (ix2 p o')) o := by
  rw [pay_eq, RowOps.levelStep_apply, stepColOf_apply]
  rfl

end Cert.KernelIdeal.FusedPayload

end
-- ==== Proof.FusedRegion.lean ====
/-
  The fused region: the array it leaves, as a function of the four arrays it finds.

  Grid point t takes token rows 256·t … 256·t + 255 of the activations, the whole transposed integer weight, the whole
  step row and the whole bias row, and writes the same token rows of the output. The 32 points' blocks tile the output, so
  after the region the output holds at (r, o) the quantisation, at o, of token r's output row
      o' ↦ ((∑_k level x[r, k] · q[k, o']) · step x[r, ·]) · s[0, o'] + β[0, o'].
-/
import proofs.«127962_j82489141887066_2_alg».proof.Proof.Gen.KernelIdeal.Frame
import proofs.«127962_j82489141887066_2_alg».proof.Proof.FusedPayload
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.FusedRegion

open Cert.KernelIdeal Cert.KernelIdeal.Gen Idealize.ShloMosaic.ValueIdx Cert.FakeQuant

variable (V : (c : Dev nD) → (b : Ref sig .tc) → Buf (Elt Ideal) ((c : Thread nD τ).loc b))

theorem hz : (![0, 0] : Fin 2 → Nat) = fun _ => 0 := funext fun a => by fin_cases a <;> rfl

/-- Token r's output row before its quantisation, from the activations x, the transposed integer weight q, the step row s
    and the bias row β. -/
def rowPre (x : S8192x4096.Idx → EReal) (q : S4096x4096.Idx → EReal) (s β : S1x4096.Idx → EReal) (r : Fin 8192) (o : Fin 4096) : EReal :=
  ((∑ k : Fin 4096, level (x (ix2 r k)) (step (fun i : Fin 4096 => x (ix2 r i))) * q (ix2 k o))
      * step (fun i : Fin 4096 => x (ix2 r i))) * s (ix2 (0 : Fin 1) o) + β (ix2 (0 : Fin 1) o)

/-- The region's output, from the arrays as the region finds them. -/
def outq (c : Dev nD) : S8192x4096.Idx → EReal := fun j =>
  quant (rowPre (V c main_v1) (V c main_v0_0) (V c main_v0_1) (V c main_v2) (j 0)) (j 1)

/-- The printed index maps over the 32 points: activations and output move along rows, the other three windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 32 :=
  (by decide +kernel : ∀ t : Fin grid1.N, _)

/-- Entry (p, k) of the activation block at point t is the activations' entry (256·t + p, k). -/
theorem iblk_x_apply (c : Dev nD) (t : Fin cfg1.N) (p : Fin 256) (k : Fin 4096) (r : Fin 8192) (hr : r.val = t.val * 256 + p.val) :
    (iblk1 V c 0 t : FVec Ideal S256x4096 .f32) (ix2 p k) = (V c main_v1 : S8192x4096.Idx → EReal) (ix2 r k) := by
  obtain ⟨e0, e1, -⟩ := idx_facts t
  unfold iblk1
  rw [View.read_apply]
  show V c main_v1 _ = V c main_v1 _
  congr 1
  funext a
  apply Fin.ext
  match a with
  | ⟨0, _⟩ => show win1_0.index t (0 : Fin 2) * 256 + 1 * p.val = r.val; rw [e0, hr]; omega
  | ⟨1, _⟩ => show win1_0.index t (1 : Fin 2) * 4096 + 1 * k.val = k.val; rw [e1]; omega

/-- The integer-weight window's one block is the whole array, at every point. -/
theorem iblk_q (c : Dev nD) (t : Fin cfg1.N) : (iblk1 V c 1 t : FVec Ideal S4096x4096 .bf16) = (V c main_v0_0 : S4096x4096.Idx → EReal) := by
  obtain ⟨-, -, e2, e3, -⟩ := idx_facts t
  funext j
  unfold iblk1
  rw [View.read_apply]
  show V c main_v0_0 _ = V c main_v0_0 _
  congr 1
  funext a
  apply Fin.ext
  match a with
  | ⟨0, _⟩ => show win1_1.index t (0 : Fin 2) * 4096 + 1 * (j 0).val = (j 0).val; rw [e2]; omega
  | ⟨1, _⟩ => show win1_1.index t (1 : Fin 2) * 4096 + 1 * (j 1).val = (j 1).val; rw [e3]; omega

/-- The step-row window's one block is the whole row, at every point. -/
theorem iblk_s (c : Dev nD) (t : Fin cfg1.N) : (iblk1 V c 2 t : FVec Ideal S1x4096 .f32) = (V c main_v0_1 : S1x4096.Idx → EReal) := by
  obtain ⟨-, -, -, -, e4, e5, -⟩ := idx_facts t
  funext j
  unfold iblk1
  rw [View.read_apply]
  show V c main_v0_1 _ = V c main_v0_1 _
  congr 1
  funext a
  apply Fin.ext
  match a with
  | ⟨0, _⟩ => show win1_2.index t (0 : Fin 2) * 1 + 1 * (j 0).val = (j 0).val; rw [e4]; omega
  | ⟨1, _⟩ => show win1_2.index t (1 : Fin 2) * 4096 + 1 * (j 1).val = (j 1).val; rw [e5]; omega

/-- The bias-row window's one block is the whole row, at every point. -/
theorem iblk_b (c : Dev nD) (t : Fin cfg1.N) : (iblk1 V c 3 t : FVec Ideal S1x4096 .f32) = (V c main_v2 : S1x4096.Idx → EReal) := by
  obtain ⟨-, -, -, -, -, -, e6, e7, -⟩ := idx_facts t
  funext j
  unfold iblk1
  rw [View.read_apply]
  show V c main_v2 _ = V c main_v2 _
  congr 1
  funext a
  apply Fin.ext
  match a with
  | ⟨0, _⟩ => show win1_3.index t (0 : Fin 2) * 1 + 1 * (j 0).val = (j 0).val; rw [e6]; omega
  | ⟨1, _⟩ => show win1_3.index t (1 : Fin 2) * 4096 + 1 * (j 1).val = (j 1).val; rw [e7]; omega

/-- What point t writes back is block t of `outq`: entry (p, o) of the stored block is the quantisation, at o, of the output
    row of token 256·t + p, and the block sits at rows 256·t … of the array. -/
theorem wrote_out (c : Dev nD) (t : Fin cfg1.N) :
    (dat1 V c).flushed 4 t = ((cfg1.win 4).blk t).view.read (Elt Ideal) (outq V c) := by
  show (cfg1.win 4).cut (grid1.coords t) ((dat1 V c).after 4 t) = _
  rw [after1_4]
  unfold out1_4
  rw [View.canon_unit_zero hz]
  simp only [View.ld_unit_zero (S := S256x4096) hz, View.ld_unit_zero (S := S4096x4096) hz, View.ld_unit_zero (S := S1x4096) hz]
  rw [iblk_q V c t, iblk_s V c t, iblk_b V c t]
  obtain ⟨-, -, -, -, -, -, -, -, e8, e9, ht⟩ := idx_facts t
  funext j
  have hj0 : (j 0).val < 256 := (j 0).isLt
  have hj1 : (j 1).val < 4096 := (j 1).isLt
  show k1_pay1 (F := Ideal) (iblk1 V c 0 t) (V c main_v0_0) (V c main_v0_1) (V c main_v2) j = outq V c (((cfg1.win 4).blk t).view.emb j)
  have ej : j = ix2 (⟨(j 0).val, hj0⟩ : Fin 256) (⟨(j 1).val, hj1⟩ : Fin 4096) :=
    funext fun a => by match a with | ⟨0, _⟩ => rfl | ⟨1, _⟩ => rfl
  refine (congrArg (k1_pay1 (F := Ideal) (iblk1 V c 0 t) (V c main_v0_0) (V c main_v0_1) (V c main_v2)) ej).trans ?_
  refine (FusedPayload.fused_apply _ _ _ _ _ _).trans ?_
  have hr : ((⟨t.val * 256 + (j 0).val, by omega⟩ : Fin 8192)).val = t.val * 256 + ((⟨(j 0).val, hj0⟩ : Fin 256)).val := rfl
  simp only [FusedPayload.preOf_apply, iblk_x_apply V c t _ _ _ hr]
  have er : (((cfg1.win 4).blk t).view.emb j) 0 = (⟨t.val * 256 + (j 0).val, by omega⟩ : Fin 8192) :=
    Fin.ext (by show win1_4.index t (0 : Fin 2) * 256 + 1 * (j 0).val = t.val * 256 + (j 0).val; rw [e8]; omega)
  have eo : (((cfg1.win 4).blk t).view.emb j) 1 = (⟨(j 1).val, hj1⟩ : Fin 4096) :=
    Fin.ext (by show win1_4.index t (1 : Fin 2) * 4096 + 1 * (j 1).val = (j 1).val; rw [e9, Nat.zero_mul, Nat.zero_add, Nat.one_mul])
  unfold outq
  rw [er, eo]
  rfl

/-- An index of the output lies in point t's block iff each coordinate is in the block's range. -/
theorem mem_blk_out (t : Fin cfg1.N) (i : S8192x4096.Idx) :
    i ∈ ((cfg1.win 4).blk t).view.set ↔ ∀ a : Fin 2, win1_4.index t a * S256x4096.size a ≤ (i a).val ∧ (i a).val < win1_4.index t a * S256x4096.size a + S256x4096.size a := by
  show i ∈ ((View.whole main_v3).slice (win1_4.rect t)).set ↔ _
  rw [View.set_slice_whole, Rect.mem_set_unit]
  exact Iff.rfl

/-- Row r of the output is written by point r / 256. -/
theorem cover_out (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 32 := N_1
  obtain ⟨t, ht⟩ : ∃ t : Fin cfg1.N, t.val = (i 0).val / 256 := ⟨⟨(i 0).val / 256, by rw [hN]; omega⟩, rfl⟩
  obtain ⟨-, -, -, -, -, -, -, -, e8, e9, -⟩ := idx_facts t
  refine ⟨t, flush1_4 t, ?_⟩
  rw [mem_blk_out]
  intro a
  match a with
  | ⟨0, _⟩ => show win1_4.index t (0 : Fin 2) * 256 ≤ (i 0).val ∧ (i 0).val < win1_4.index t (0 : Fin 2) * 256 + 256; rw [e8, ht]; omega
  | ⟨1, _⟩ => show win1_4.index t (1 : Fin 2) * 4096 ≤ (i 1).val ∧ (i 1).val < win1_4.index t (1 : Fin 2) * 4096 + 4096; rw [e9]; omega

/-- After the region the output array is `outq` of the arrays the region found. -/
theorem final_out (c : Dev nD) : (dat1 V c).arrAt 4 cfg1.N = outq V c :=
  (dat1 V c).arrAt_eq_of_cover 4 (outq V c) (fun t _ => wrote_out V c t) cover_out

end Cert.KernelIdeal.FusedRegion

end
-- ==== Proof.LibFlatten.lean ====
/-
  The leading two axes of a three-axis array merged into one, and split again, read at an index.

  An a × b × c array viewed as n × c with n = a·b has, as its row p·b + q, the row (p, q) of the array; conversely an
  n × c array viewed as a × b × c has at (p, q, k) the entry (p·b + q, k). Both are statements about row-major positions:
  ((p·b + q)·c + k) on both sides.
-/
import Idealize.ShloMosaic.Lib.Pipeline.Value
import Idealize.ShloMosaic.Lib.ValueIdx

noncomputable section

namespace Idealize.ShloMosaic.Flatten

open Idealize.ShloMosaic Idealize.ShloMosaic.ValueIdx

variable {α : Type} {a b c n : Nat}

/-- Rows of the merged view: row p·b + q is the array's row (p, q). -/
theorem merge_apply (x : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ x h (ix2 r k) = x (ix3 p q k) :=
  shapeCast_apply x h (ix2 r k) (ix3 p q k) (by
    rw [Shape.rowMajor_val_three, Shape.rowMajor_val_two]
    show (p.val * b + q.val) * c + k.val = r.val * c + k.val
    rw [hr])

/-- Entries of the split view: (p, q, k) is the entry (p·b + q, k). -/
theorem split_apply (y : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ y h (ix3 p q k) = y (ix2 r k) :=
  shapeCast_apply y h (ix3 p q k) (ix2 r k) (by
    rw [Shape.rowMajor_val_three, Shape.rowMajor_val_two]
    show r.val * c + k.val = (p.val * b + q.val) * c + k.val
    rw [hr])

end Idealize.ShloMosaic.Flatten

end
-- ==== Proof.KernelValue.lean ====
/-
  The kernel's result as one function of its arguments.

  The fused region finds: the activations with their two leading axes merged (row b·2048 + s is token (b, s)); the
  transposed integer weight and the step row the first region left, which are functions of the weight argument; and the bias as
  a one-row array. Its output, split back into [4, 2048, 4096], is therefore at (b, s, o) the quantisation, at o, of token
  (b, s)'s output row with the integer product taken first: the specification's `outInt` of the three arguments.
-/
import proofs.«127962_j82489141887066_2_alg».proof.Proof.KernelRun
import proofs.«127962_j82489141887066_2_alg».proof.Proof.WeightRegion
import proofs.«127962_j82489141887066_2_alg».proof.Proof.FusedRegion
import proofs.«127962_j82489141887066_2_alg».proof.Proof.LibFlatten
import Idealize.ShloMosaic.Lib.StableHlo.Run
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.FakeQuant

variable (m : (ℓ : Loc nD τ sig) → Buf (Elt Ideal) ℓ) (ρ : Dev nD → PrngReg)

/-- The activations as the fused region finds them: the argument with its two leading axes merged. -/
theorem acts_found (c : Dev nD) : (V2 m ρ c main_v1 : S8192x4096.Idx → EReal)
    = shapeCast S8192x4096 (m ((c.tc : Thread nD τ).loc main_arg0) : S4x2048x4096.Idx → EReal) Facts₀.shapeCasts_S4x2048x4096_S8192x4096 := by
  show StableHlo.after hostOps1 (W1 m ρ c) (Proc.devRef .tc main_v1) = _
  after_results
  rw [W1_of_ne m ρ c main_arg0 (by decide)]
  rfl

/-- The bias as the fused region finds it: the argument as a one-row array. -/
theorem bias_found (c : Dev nD) : (V2 m ρ c main_v2 : S1x4096.Idx → EReal)
    = shapeCast S1x4096 (m ((c.tc : Thread nD τ).loc main_arg2) : S4096.Idx → EReal) Facts₀.shapeCasts_S4096_S1x4096 := by
  show StableHlo.after hostOps1 (W1 m ρ c) (Proc.devRef .tc main_v2) = _
  after_results
  rw [W1_of_ne m ρ c main_arg2 (by decide)]
  rfl

/-- The transposed integer weight as the fused region finds it: what the first region left. -/
theorem wq_found (c : Dev nD) : (V2 m ρ c main_v0_0 : S4096x4096.Idx → EReal) = WeightRegion.wq (V0 m ρ) c := by
  show StableHlo.after hostOps1 (W1 m ρ c) (Proc.devRef .tc main_v0_0) = _
  after_results
  exact (W1_arr m ρ c 1).trans (WeightRegion.final_wq (V0 m ρ) c)

/-- The step row as the fused region finds it: what the first region left. -/
theorem ws_found (c : Dev nD) : (V2 m ρ c main_v0_1 : S1x4096.Idx → EReal) = WeightRegion.ws (V0 m ρ) c := by
  show StableHlo.after hostOps1 (W1 m ρ c) (Proc.devRef .tc main_v0_1) = _
  after_results
  exact (W1_arr m ρ c 2).trans (WeightRegion.final_ws (V0 m ρ) c)

/-- The result buffer after the last reshape is the specification's integer-product-first result of the three arguments. -/
theorem result_eq (c : Dev nD) :
    W4 m ρ c (Proc.devRef .tc main_v4)
      = outInt (m ((c.tc : Thread nD τ).loc main_arg0)) (m ((c.tc : Thread nD τ).loc main_arg1)) (m ((c.tc : Thread nD τ).loc main_arg2)) := by
  show StableHlo.after hostOps2 (W3 m ρ c) (Proc.devRef .tc main_v4) = _
  after_results
  rw [show W3 m ρ c (Proc.devRef .tc main_v3) = FusedRegion.outq (V2 m ρ) c from (W3_arr m ρ c 4).trans (FusedRegion.final_out (V2 m ρ) c)]
  funext j
  obtain ⟨b, s, o, rfl⟩ : ∃ (b : Fin 4) (s : Fin 2048) (o : Fin 4096), j = ix3 b s o := ⟨j 0, j 1, j 2, eq_ix3 j⟩
  show shapeCast S4x2048x4096 (FusedRegion.outq (V2 m ρ) c) Facts₀.shapeCasts_S8192x4096_S4x2048x4096 (ix3 b s o) = _
  have hr : ((⟨b.val * 2048 + s.val, by omega⟩ : Fin 8192)).val = b.val * 2048 + s.val := rfl
  rw [Flatten.split_apply _ _ b s o _ hr]
  unfold FusedRegion.outq outInt
  refine congrArg (fun y : Fin 4096 → EReal => quant y o) ?_
  funext o'
  unfold FusedRegion.rowPre preInt
  rw [acts_found, wq_found, ws_found, bias_found]
  simp only [Flatten.merge_apply _ _ b s _ _ hr, shapeCast_a_1a_apply, WeightRegion.wq, WeightRegion.ws, WeightRegion.levelAt, WeightRegion.stepAt]

end Cert.KernelIdeal.Whole

end
-- ==== Proof.RefOpsPlain.lean ====
/-
  The reference program's 52 host operations, the operations of the functions it calls written on their buffers directly.
  One table and nothing else: that it is the program's own list is proved where it is used.
-/
import proofs.«127962_j82489141887066_2_alg».proof.Proof.RefRun

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The 52 operations, the called functions' operations written on their buffers directly. -/
abbrev opsPlain : List (HloOp τ sig (Elt F)) :=
  [ unary main_arg1 main_v0 (Host.absf : (⟨S4096x4096, .f32⟩ : BufTy).Contents (Elt F) → (⟨S4096x4096, .f32⟩ : BufTy).Contents (Elt F)),
    nullary main_cst (constant S_ .f32 0xFF800000#32),
    binary main_v0 main_cst main_v1 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 (broadcastInDim S4096x1 ![] bcast_S_S4096x1 : (⟨S_, .f32⟩ : BufTy).Contents (Elt F) → (⟨S4096x1, .f32⟩ : BufTy).Contents (Elt F)),
    binary main_call0_v1 main_v2 main_v3 (maximumf : (⟨S4096x1, .f32⟩ : BufTy).Contents (Elt F) → (⟨S4096x1, .f32⟩ : BufTy).Contents (Elt F) → (⟨S4096x1, .f32⟩ : BufTy).Contents (Elt F)),
    nullary main_cst_1 (constant S_ .f32 0x42FE0000#32),
    unary main_cst_1 main_v4 (broadcastInDim S4096x1 ![] bcast_S_S4096x1 : (⟨S_, .f32⟩ : BufTy).Contents (Elt F) → (⟨S4096x1, .f32⟩ : BufTy).Contents (Elt F)),
    binary main_v3 main_v4 main_v5 (Host.divf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x4096 ![0, 1] bcast_S4096x1_S4096x4096_0_1 : (⟨S4096x1, .f32⟩ : BufTy).Contents (Elt F) → (⟨S4096x4096, .f32⟩ : BufTy).Contents (Elt F)),
    binary main_arg1 main_v6 main_v7 (Host.divf : (⟨S4096x4096, .f32⟩ : BufTy).Contents (Elt F) → (⟨S4096x4096, .f32⟩ : BufTy).Contents (Elt F) → (⟨S4096x4096, .f32⟩ : BufTy).Contents (Elt F)),
    unary main_v7 main_v8 (Host.roundeven : (⟨S4096x4096, .f32⟩ : BufTy).Contents (Elt F) → (⟨S4096x4096, .f32⟩ : BufTy).Contents (Elt F)),
    unary main_v5 main_v9 (broadcastInDim S4096x4096 ![0, 1] bcast_S4096x1_S4096x4096_0_1 : (⟨S4096x1, .f32⟩ : BufTy).Contents (Elt F) → (⟨S4096x4096, .f32⟩ : BufTy).Contents (Elt F)),
    binary main_v8 main_v9 main_v10 (mulf : (⟨S4096x4096, .f32⟩ : BufTy).Contents (Elt F) → (⟨S4096x4096, .f32⟩ : BufTy).Contents (Elt F) → (⟨S4096x4096, .f32⟩ : BufTy).Contents (Elt F)),
    unary main_arg0 main_v11 (Host.absf : (⟨S4x2048x4096, .f32⟩ : BufTy).Contents (Elt F) → (⟨S4x2048x4096, .f32⟩ : BufTy).Contents (Elt F)),
    nullary main_cst_2 (constant S_ .f32 0xFF800000#32),
    binary main_v11 main_cst_2 main_v12 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v12 main_v13 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_3 (constant S_ .f32 0x3727C5AC#32),
    unary main_cst_3 main_call2_v0 (id : (⟨S_, .f32⟩ : BufTy).Contents (Elt F) → (⟨S_, .f32⟩ : BufTy).Contents (Elt F)),
    unary main_call2_v0 main_call2_v1 (broadcastInDim S4x2048x1 ![] bcast_S_S4x2048x1 : (⟨S_, .f32⟩ : BufTy).Contents (Elt F) → (⟨S4x2048x1, .f32⟩ : BufTy).Contents (Elt F)),
    binary main_call2_v1 main_v13 main_v14 (maximumf : (⟨S4x2048x1, .f32⟩ : BufTy).Contents (Elt F) → (⟨S4x2048x1, .f32⟩ : BufTy).Contents (Elt F) → (⟨S4x2048x1, .f32⟩ : BufTy).Contents (Elt F)),
    nullary main_cst_4 (constant S_ .f32 0x42FE0000#32),
    unary main_cst_4 main_v15 (broadcastInDim S4x2048x1 ![] bcast_S_S4x2048x1 : (⟨S_, .f32⟩ : BufTy).Contents (Elt F) → (⟨S4x2048x1, .f32⟩ : BufTy).Contents (Elt F)),
    binary main_v14 main_v15 main_v16 (Host.divf : (⟨S4x2048x1, .f32⟩ : BufTy).Contents (Elt F) → (⟨S4x2048x1, .f32⟩ : BufTy).Contents (Elt F) → (⟨S4x2048x1, .f32⟩ : BufTy).Contents (Elt F)),
    unary main_v16 main_v17 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v17 main_v18 (Host.divf : (⟨S4x2048x4096, .f32⟩ : BufTy).Contents (Elt F) → (⟨S4x2048x4096, .f32⟩ : BufTy).Contents (Elt F) → (⟨S4x2048x4096, .f32⟩ : BufTy).Contents (Elt F)),
    unary main_v18 main_v19 (Host.roundeven : (⟨S4x2048x4096, .f32⟩ : BufTy).Contents (Elt F) → (⟨S4x2048x4096, .f32⟩ : BufTy).Contents (Elt F)),
    unary main_v16 main_v20 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v19 main_v20 main_v21 (mulf : (⟨S4x2048x4096, .f32⟩ : BufTy).Contents (Elt F) → (⟨S4x2048x4096, .f32⟩ : BufTy).Contents (Elt F) → (⟨S4x2048x4096, .f32⟩ : BufTy).Contents (Elt F)),
    binary main_v21 main_v10 main_v22 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v22 main_v24 main_v25 (addf : (⟨S4x2048x4096, .f32⟩ : BufTy).Contents (Elt F) → (⟨S4x2048x4096, .f32⟩ : BufTy).Contents (Elt F) → (⟨S4x2048x4096, .f32⟩ : BufTy).Contents (Elt F)),
    unary main_v25 main_v26 (Host.absf : (⟨S4x2048x4096, .f32⟩ : BufTy).Contents (Elt F) → (⟨S4x2048x4096, .f32⟩ : BufTy).Contents (Elt F)),
    nullary main_cst_5 (constant S_ .f32 0xFF800000#32),
    binary main_v26 main_cst_5 main_v27 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v27 main_v28 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_6 (constant S_ .f32 0x3727C5AC#32),
    unary main_cst_6 main_call4_v0 (id : (⟨S_, .f32⟩ : BufTy).Contents (Elt F) → (⟨S_, .f32⟩ : BufTy).Contents (Elt F)),
    unary main_call4_v0 main_call4_v1 (broadcastInDim S4x2048x1 ![] bcast_S_S4x2048x1 : (⟨S_, .f32⟩ : BufTy).Contents (Elt F) → (⟨S4x2048x1, .f32⟩ : BufTy).Contents (Elt F)),
    binary main_call4_v1 main_v28 main_v29 (maximumf : (⟨S4x2048x1, .f32⟩ : BufTy).Contents (Elt F) → (⟨S4x2048x1, .f32⟩ : BufTy).Contents (Elt F) → (⟨S4x2048x1, .f32⟩ : BufTy).Contents (Elt F)),
    nullary main_cst_7 (constant S_ .f32 0x42FE0000#32),
    unary main_cst_7 main_v30 (broadcastInDim S4x2048x1 ![] bcast_S_S4x2048x1 : (⟨S_, .f32⟩ : BufTy).Contents (Elt F) → (⟨S4x2048x1, .f32⟩ : BufTy).Contents (Elt F)),
    binary main_v29 main_v30 main_v31 (Host.divf : (⟨S4x2048x1, .f32⟩ : BufTy).Contents (Elt F) → (⟨S4x2048x1, .f32⟩ : BufTy).Contents (Elt F) → (⟨S4x2048x1, .f32⟩ : BufTy).Contents (Elt F)),
    unary main_v31 main_v32 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v25 main_v32 main_v33 (Host.divf : (⟨S4x2048x4096, .f32⟩ : BufTy).Contents (Elt F) → (⟨S4x2048x4096, .f32⟩ : BufTy).Contents (Elt F) → (⟨S4x2048x4096, .f32⟩ : BufTy).Contents (Elt F)),
    unary main_v33 main_v34 (Host.roundeven : (⟨S4x2048x4096, .f32⟩ : BufTy).Contents (Elt F) → (⟨S4x2048x4096, .f32⟩ : BufTy).Contents (Elt F)),
    unary main_v31 main_v35 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v34 main_v35 main_v36 (mulf : (⟨S4x2048x4096, .f32⟩ : BufTy).Contents (Elt F) → (⟨S4x2048x4096, .f32⟩ : BufTy).Contents (Elt F) → (⟨S4x2048x4096, .f32⟩ : BufTy).Contents (Elt F)) ]

end Cert.ReferenceIdeal.RunValue

end
-- ==== Proof.RefRunValue.lean ====
/-
  The reference program's run, with its result read as the last stage of its operations.

  The program is a straight line of 52 host operations. Twelve of them come from three small functions the program calls
  (a clip and a rounding, at three places) and are written through typed views of their buffers; at these buffers the typed view
  is the buffer itself, so the same twelve operations can be written on the buffers directly (the table `opsPlain`, in its own
  module), and the two lists are one list. Read through the second spelling, the result buffer after the 52 operations is the operations' composed term of the
  three arguments: the last stage, `val_main_v36`. Every weakly fair execution terminates with the result there and the
  arguments unchanged.
-/
import proofs.«127962_j82489141887066_2_alg».proof.Proof.RefOpsPlain
import proofs.«127962_j82489141887066_2_alg».proof.Proof.RefRead
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 65536 in
/-- The two spellings are one list: a typed view of a buffer at the buffer's own type is the buffer. -/
theorem ops_plain : (ops : List (HloOp τ sig (Elt F))) = opsPlain := rfl

set_option maxRecDepth 65536 in
set_option maxHeartbeats 2000000 in
/-- After the operations the result buffer holds the last stage of the three arguments. -/
theorem result_eq (m : (ℓ : Loc nD τ sig) → Buf (Elt F) ℓ) (c : Dev nD) :
    after (ops (F := F)) (launchContents m c) (Proc.devRef .tc main_v36)
      = val_main_v36 (F := F) (m ((c.tc : Thread nD τ).loc main_arg0)) (m ((c.tc : Thread nD τ).loc main_arg1)) (m ((c.tc : Thread nD τ).loc main_arg2)) := by
  rw [ops_plain]
  after_results_simp
  rfl

set_option maxRecDepth 65536 in
set_option maxHeartbeats 2000000 in
/-- No operation writes an argument's buffer. -/
theorem kept (m : (ℓ : Loc nD τ sig) → Buf (Elt F) ℓ) (c : Dev nD) :
    after (ops (F := F)) (launchContents m c) (Proc.devRef .tc main_arg0) = m ((c.tc : Thread nD τ).loc main_arg0)
    ∧ after (ops (F := F)) (launchContents m c) (Proc.devRef .tc main_arg1) = m ((c.tc : Thread nD τ).loc main_arg1)
    ∧ after (ops (F := F)) (launchContents m c) (Proc.devRef .tc main_arg2) = m ((c.tc : Thread nD τ).loc main_arg2) := by
  rw [ops_plain]
  refine ⟨?_, ?_, ?_⟩ <;> (after_results_simp <;> rfl)

/-- On every device, from any memory with zero counters: every weakly fair execution of the reference terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = val_main_v36 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v36).trans (result_eq m c),
      (h c main_arg0).trans (kept m c).1,
      (h c main_arg1).trans (kept m c).2.1,
      (h c main_arg2).trans (kept m c).2.2⟩)
    (run_seq scopedRefs_eq scopedSems_eq defs main (fun _ => ops) main_eq (fun _ => ops_sub) m ρ)

end Cert.ReferenceIdeal.RunValue

end
-- ==== Proof.LibLastAxisMax.lean ====
/-
  The host's maximum over the last axis of a three-axis array, read at an index, over the extended reals.

  For an a × b × c array reduced over its last axis by the host's reduce with a maximum body, the result at (p, q)
  is the fold of max, from the initial value, over the c entries (p, q, j). Putting coordinate k back on the
  dropped last axis of the result index (p, q) gives the source index (p, q, k).
-/
import Idealize.ShloMosaic.Lib.ValueIdx
import Idealize.ShloMosaic.PureOps.Ideal.Laws
import Idealize.ShloMosaic.PureOps.Reduce

noncomputable section

namespace Idealize.ShloMosaic.LastAxisMax

open Idealize.ShloMosaic Idealize.ShloMosaic.ValueIdx

variable {a b c : Nat}

/-- Result index (p, q) with coordinate k put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis at (p, q): the fold of max over the entries (p, q, j) from the initial value. -/
theorem lastMax_host (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce FloatOps.maximumf x init h' hu (ix2 p q)
      = (Finset.univ : Finset (Fin c)).fold max (init (Shape.Idx.first hu)) (fun j => x (ix3 p q j)) := by
  rw [Host.reduce_eq_fold_single FloatOps.maximumf x init h' h hu]
  have hf : (x ∘ h.lift (ix2 p q)) = fun k : Fin c => x (ix3 p q k) :=
    funext fun k => congrArg x (lift_last h p q k)
  exact congrArg (fun f => Finset.fold max (init (Shape.Idx.first hu)) f (Finset.univ : Finset (Fin c))) hf

end Idealize.ShloMosaic.LastAxisMax

end
-- ==== Proof.RefSide.lean ====
/-
  The reference program computes the specification's "dequantise first" arrangement.

  Read one operation at a time, the reference does this.  For each output channel o it takes the largest magnitude of
  weight row o, floors it at 1e-5 and divides by 127: the row's step.  Every weight is divided by its row's step,
  rounded to the nearest integer (ties to even) and multiplied by the step again.  The same is done to every token's
  row of activations.  The dequantised activations of token (b, s) are contracted with the dequantised weights of
  channel o over the 4096 features, and the bias of o is added: the output row before its quantisation.  That row is
  then quantised in the same way, by the largest magnitude over its 4096 channels.

  Each lemma below reads one intermediate array at an index built from coordinates, bottom-up.  The one place where the
  reference and the specification write a term differently is the floor: the reference has max(1e-5, amax), the
  specification max(amax, 1e-5); max is commutative.
-/
import proofs.«127962_j82489141887066_2_alg».proof.Proof.RefRead
import proofs.«127962_j82489141887066_2_alg».proof.Proof.Spec
import proofs.«127962_j82489141887066_2_alg».proof.Proof.LibRowOps
import proofs.«127962_j82489141887066_2_alg».proof.Proof.LibLastAxisMax
import Idealize.ShloMosaic.Lib.ValueIdx
import Idealize.ShloMosaic.Lib.Pipeline.Value
import Idealize.ShloMosaic.PureOps.Ideal.Laws

noncomputable section

open scoped BigOperators

namespace Cert.ReferenceIdeal.RefSide

open Cert.ReferenceIdeal Cert.ReferenceIdeal.ReadP Idealize.ShloMosaic Idealize.ShloMosaic.ValueIdx Cert.FakeQuant

/-! ## The weights: one step per output channel -/

/-- The row maximum, stood up as a column, is read at (o, 0) from entry o. -/
theorem idx_v2 (o : Fin 4096) : idx_main_v2 (ix2 o (0 : Fin 1)) = ix1 o :=
  funext fun a => match a with | ⟨0, _⟩ => rfl

/-- The column of steps spread over the row: (o, i) reads (o, 0). -/
theorem idx_v6 (o i : Fin 4096) : idx_main_v6 (ix2 o i) = ix2 o (0 : Fin 1) :=
  funext fun a => match a with | ⟨0, _⟩ => rfl | ⟨1, _⟩ => rfl

/-- The second spread of the same column: (o, i) reads (o, 0). -/
theorem idx_v9 (o i : Fin 4096) : idx_main_v9 (ix2 o i) = ix2 o (0 : Fin 1) :=
  funext fun a => match a with | ⟨0, _⟩ => rfl | ⟨1, _⟩ => rfl

/-- The maximum over weight row o of the magnitudes |w_{o,i}| = max(w_{o,i}, -w_{o,i}), from minus infinity. -/
theorem w_amax (x1 : (⟨S4096x4096, .f32⟩ : BufTy).Contents (Elt Ideal)) (o : Fin 4096) :
    val_main_v1 (F := Ideal) x1 (ix1 o) = amax (fun i : Fin 4096 => x1 (ix2 o i)) := by
  unfold val_main_v1
  rw [RowOps.rowMax_host (val_main_v0 (F := Ideal) x1) (val_main_cst (F := Ideal)) _ (by decide) _ o]
  rfl

/-- Weight row o's step: max(1e-5, amax) / 127, which is max(amax, 1e-5) / 127. -/
theorem w_step (x1 : (⟨S4096x4096, .f32⟩ : BufTy).Contents (Elt Ideal)) (o : Fin 4096) :
    val_main_v5 (F := Ideal) x1 (ix2 o (0 : Fin 1)) = step (fun i : Fin 4096 => x1 (ix2 o i)) := by
  rw [val_main_v5_apply, val_main_v3_apply, val_main_v2_apply, idx_v2, w_amax, val_main_call0_v1_apply, val_main_v4_apply]
  show Ideal.div (max (Ideal.ofBits .f32 0x3727C5AC#32) (amax fun i : Fin 4096 => x1 (ix2 o i))) (Ideal.ofBits .f32 0x42FE0000#32) = _
  unfold step
  rw [max_comm]

/-- The dequantised weight: its level at the row's step, times that step. -/
theorem w_deq (x1 : (⟨S4096x4096, .f32⟩ : BufTy).Contents (Elt Ideal)) (o i : Fin 4096) :
    val_main_v10 (F := Ideal) x1 (ix2 o i)
      = level (x1 (ix2 o i)) (step (fun i : Fin 4096 => x1 (ix2 o i))) * step (fun i : Fin 4096 => x1 (ix2 o i)) := by
  rw [val_main_v10_apply, val_main_v8_apply, val_main_v7_apply, val_main_v6_apply, idx_v6, val_main_v9_apply, idx_v9, w_step]
  rfl

/-! ## The activations: one step per token -/

/-- The token maximum, with a unit last axis added, is read at (b, s, 0) from entry (b, s). -/
theorem idx_v13 (b : Fin 4) (s : Fin 2048) : idx_main_v13 (ix3 b s (0 : Fin 1)) = ix2 b s :=
  funext fun a => match a with | ⟨0, _⟩ => rfl | ⟨1, _⟩ => rfl

/-- The steps spread over the features: (b, s, i) reads (b, s, 0). -/
theorem idx_v17 (b : Fin 4) (s : Fin 2048) (i : Fin 4096) : idx_main_v17 (ix3 b s i) = ix3 b s (0 : Fin 1) :=
  funext fun a => match a with | ⟨0, _⟩ => rfl | ⟨1, _⟩ => rfl | ⟨2, _⟩ => rfl

/-- The second spread of the same steps: (b, s, i) reads (b, s, 0). -/
theorem idx_v20 (b : Fin 4) (s : Fin 2048) (i : Fin 4096) : idx_main_v20 (ix3 b s i) = ix3 b s (0 : Fin 1) :=
  funext fun a => match a with | ⟨0, _⟩ => rfl | ⟨1, _⟩ => rfl | ⟨2, _⟩ => rfl

/-- The maximum over token (b, s)'s features of the magnitudes |x_{b,s,i}|, from minus infinity. -/
theorem x_amax (x0 : (⟨S4x2048x4096, .f32⟩ : BufTy).Contents (Elt Ideal)) (b : Fin 4) (s : Fin 2048) :
    val_main_v12 (F := Ideal) x0 (ix2 b s) = amax (fun i : Fin 4096 => x0 (ix3 b s i)) := by
  unfold val_main_v12
  rw [LastAxisMax.lastMax_host (val_main_v11 (F := Ideal) x0) (val_main_cst_2 (F := Ideal)) _ (by decide) _ b s]
  rfl

/-- Token (b, s)'s step: max(1e-5, amax) / 127, which is max(amax, 1e-5) / 127. -/
theorem x_step (x0 : (⟨S4x2048x4096, .f32⟩ : BufTy).Contents (Elt Ideal)) (b : Fin 4) (s : Fin 2048) :
    val_main_v16 (F := Ideal) x0 (ix3 b s (0 : Fin 1)) = step (fun i : Fin 4096 => x0 (ix3 b s i)) := by
  rw [val_main_v16_apply, val_main_v14_apply, val_main_v13_apply, idx_v13, x_amax, val_main_call2_v1_apply, val_main_v15_apply]
  show Ideal.div (max (Ideal.ofBits .f32 0x3727C5AC#32) (amax fun i : Fin 4096 => x0 (ix3 b s i))) (Ideal.ofBits .f32 0x42FE0000#32) = _
  unfold step
  rw [max_comm]

/-- The dequantised activation: its level at the token's step, times that step. -/
theorem x_deq (x0 : (⟨S4x2048x4096, .f32⟩ : BufTy).Contents (Elt Ideal)) (b : Fin 4) (s : Fin 2048) (i : Fin 4096) :
    val_main_v21 (F := Ideal) x0 (ix3 b s i)
      = level (x0 (ix3 b s i)) (step (fun i : Fin 4096 => x0 (ix3 b s i))) * step (fun i : Fin 4096 => x0 (ix3 b s i)) := by
  rw [val_main_v21_apply, val_main_v19_apply, val_main_v18_apply, val_main_v17_apply, idx_v17, val_main_v20_apply, idx_v20, x_step]
  rfl

/-! ## The output row before its quantisation -/

/-- In the contraction for (b, s, o), term k takes the activation at (b, s, k). -/
theorem lidx_v22 (b : Fin 4) (s : Fin 2048) (o k : Fin 4096) : lidx_main_v22 (ix3 b s o) k = ix3 b s k :=
  funext fun a => match a with | ⟨0, _⟩ => rfl | ⟨1, _⟩ => rfl | ⟨2, _⟩ => rfl

/-- In the contraction for (b, s, o), term k takes the weight at (o, k). -/
theorem ridx_v22 (b : Fin 4) (s : Fin 2048) (o k : Fin 4096) : ridx_main_v22 (ix3 b s o) k = ix2 o k :=
  funext fun a => match a with | ⟨0, _⟩ => rfl | ⟨1, _⟩ => rfl

/-- The bias spread over all tokens: (b, s, o) reads entry o. -/
theorem idx_v23_v24 (b : Fin 4) (s : Fin 2048) (o : Fin 4096) : idx_main_v23 (idx_main_v24 (ix3 b s o)) = ix1 o :=
  funext fun a => match a with | ⟨0, _⟩ => rfl

/-- The output before its quantisation at (b, s, o): the sum over the features of dequantised activation times
    dequantised weight, plus the bias of o. -/
theorem pre_row (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (b : Fin 4) (s : Fin 2048) (o : Fin 4096) :
    val_main_v25 (F := Ideal) x0 x1 x2 (ix3 b s o)
      = preDeq (fun i : Fin 4096 => x0 (ix3 b s i)) (fun o i : Fin 4096 => x1 (ix2 o i)) (fun o : Fin 4096 => x2 (ix1 o)) o := by
  rw [val_main_v25_apply, val_main_v22_apply, val_main_v24_apply, val_main_v23_apply, idx_v23_v24]
  unfold preDeq
  refine congrArg₂ (· + ·) (Finset.sum_congr rfl fun k _ => ?_) rfl
  rw [lidx_v22, ridx_v22, x_deq, w_deq]

/-! ## The output row's own quantisation -/

/-- The output row's maximum, with a unit last axis added, is read at (b, s, 0) from entry (b, s). -/
theorem idx_v28 (b : Fin 4) (s : Fin 2048) : idx_main_v28 (ix3 b s (0 : Fin 1)) = ix2 b s :=
  funext fun a => match a with | ⟨0, _⟩ => rfl | ⟨1, _⟩ => rfl

/-- The output steps spread over the channels: (b, s, o) reads (b, s, 0). -/
theorem idx_v32 (b : Fin 4) (s : Fin 2048) (o : Fin 4096) : idx_main_v32 (ix3 b s o) = ix3 b s (0 : Fin 1) :=
  funext fun a => match a with | ⟨0, _⟩ => rfl | ⟨1, _⟩ => rfl | ⟨2, _⟩ => rfl

/-- The second spread of the same steps: (b, s, o) reads (b, s, 0). -/
theorem idx_v35 (b : Fin 4) (s : Fin 2048) (o : Fin 4096) : idx_main_v35 (ix3 b s o) = ix3 b s (0 : Fin 1) :=
  funext fun a => match a with | ⟨0, _⟩ => rfl | ⟨1, _⟩ => rfl | ⟨2, _⟩ => rfl

/-- The maximum over the channels of token (b, s)'s output row of the magnitudes, from minus infinity. -/
theorem y_amax (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (b : Fin 4) (s : Fin 2048) :
    val_main_v27 (F := Ideal) x0 x1 x2 (ix2 b s)
      = amax (fun o : Fin 4096 => val_main_v25 (F := Ideal) x0 x1 x2 (ix3 b s o)) := by
  unfold val_main_v27
  rw [LastAxisMax.lastMax_host (val_main_v26 (F := Ideal) x0 x1 x2) (val_main_cst_5 (F := Ideal)) _ (by decide) _ b s]
  rfl

/-- The output row's step: max(1e-5, amax) / 127, which is max(amax, 1e-5) / 127. -/
theorem y_step (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (b : Fin 4) (s : Fin 2048) :
    val_main_v31 (F := Ideal) x0 x1 x2 (ix3 b s (0 : Fin 1))
      = step (fun o : Fin 4096 => val_main_v25 (F := Ideal) x0 x1 x2 (ix3 b s o)) := by
  rw [val_main_v31_apply, val_main_v29_apply, val_main_v28_apply, idx_v28, y_amax, val_main_call4_v1_apply, val_main_v30_apply]
  show Ideal.div (max (Ideal.ofBits .f32 0x3727C5AC#32)
    (amax fun o : Fin 4096 => val_main_v25 (F := Ideal) x0 x1 x2 (ix3 b s o))) (Ideal.ofBits .f32 0x42FE0000#32) = _
  unfold step
  rw [max_comm]

/-- The result at (b, s, o): entry o of the quantisation of token (b, s)'s output row. -/
theorem y_deq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (b : Fin 4) (s : Fin 2048) (o : Fin 4096) :
    val_main_v36 (F := Ideal) x0 x1 x2 (ix3 b s o)
      = quant (fun o : Fin 4096 => val_main_v25 (F := Ideal) x0 x1 x2 (ix3 b s o)) o := by
  rw [val_main_v36_apply, val_main_v34_apply, val_main_v33_apply, val_main_v32_apply, idx_v32, val_main_v35_apply, idx_v35, y_step]
  rfl

/-! ## The reference is the specification's "dequantise first" arrangement -/

/-- THE REFERENCE'S RESULT, as one array: at (b, s, o), entry o of the quantised output row of token (b, s), the
    output row being taken with the factors dequantised first. -/
theorem ref_eq (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.ReadP.val_main_v36 (F := Ideal) x0 x1 x2 = Cert.FakeQuant.outDeq x0 x1 x2 := by
  funext j
  obtain ⟨b, s, o, rfl⟩ : ∃ b s o, j = ix3 b s o := ⟨j 0, j 1, j 2, eq_ix3 j⟩
  rw [y_deq]
  have hrow : (fun o : Fin 4096 => val_main_v25 (F := Ideal) x0 x1 x2 (ix3 b s o))
      = preDeq (fun i : Fin 4096 => x0 (ix3 b s i)) (fun o i : Fin 4096 => x1 (ix2 o i)) (fun o : Fin 4096 => x2 (ix1 o)) :=
    funext fun o => pre_row x0 x1 x2 b s o
  rw [hrow]
  rfl

end Cert.ReferenceIdeal.RefSide

end
-- ==== Proof.Finite.lean ====
/-
  Finite inputs are real inputs.

  The precondition reads: for each of the three argument arrays, every entry v satisfies |v| < +∞, and the three
  statements hold together.  Over the extended reals |v| is max v (-v); it lies strictly below +∞ exactly when v is
  neither -∞ nor +∞, that is, when v is a real number.  A conjunction over all entries of an array that came out true
  is true at each entry, so from the precondition every activation and every weight is a real.
-/
import proofs.«127962_j82489141887066_2_alg».proof.Defs
import proofs.«127962_j82489141887066_2_alg».proof.Proof.Gen.Pre_finite_inputs
import Idealize.ShloMosaic.Lib.ReduceAll
import Idealize.ShloMosaic.Lib.ValueIdx
import Mathlib.Tactic

noncomputable section

namespace Cert.KernelIdeal.Finite

open Idealize.ShloMosaic

/-- An array with no axes has exactly one index. -/
instance : Subsingleton Cert.Pre_finite_inputs.S_.Idx := ⟨fun a b => funext fun d => d.elim0⟩

/-- The pattern with all exponent bits set and no fraction bits, sign clear, denotes +∞. -/
theorem ofBits_top : Ideal.ofBits .f32 0x7F800000#32 = (⊤ : EReal) := by
  simp [Ideal.ofBits, Ideal.ieee]

/-- An extended real whose magnitude max x (-x) is below +∞ is a real: at -∞ and at +∞ the magnitude is +∞. -/
theorem real_of_max_neg_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One entry's test: if the comparison |x| < +∞ answers true then x is a real. -/
theorem real_of_abs_lt (x : Ideal .f32)
    (h : FloatOps.cmpf .olt (FloatOps.hostAbsf x) (FloatOps.ofBits .f32 0x7F800000#32 : Ideal .f32) = 1#1) :
    ∃ r : ℝ, x = (r : EReal) := by
  -- the comparison is the truth value of the strict order on the extended reals; |x| is max x (-x)
  have h' : BitVec.ofBool (decide (max (x : EReal) (-x) < Ideal.ofBits .f32 0x7F800000#32)) = 1#1 := h
  rw [ofBits_top] at h'
  refine real_of_max_neg_lt_top x ?_
  by_contra hn
  rw [decide_eq_false hn] at h'
  exact absurd h' (by decide)

/-- THE PRECONDITION DECODED: when the three-fold conjunction "every entry has finite magnitude" is true, every
    activation and every weight is a real number (the bias's part of the conjunction is not used). -/
theorem reals_of_fn (a0 : FVec Ideal Cert.Pre_finite_inputs.S4x2048x4096 .f32) (a1 : FVec Ideal Cert.Pre_finite_inputs.S4096x4096 .f32)
    (a2 : FVec Ideal Cert.Pre_finite_inputs.S4096 .f32)
    (h : Cert.Pre_finite_inputs.fn (F := Ideal) a0 a1 a2 = fun _ => 1#1) :
    (∀ j, ∃ r : ℝ, a0 j = (r : EReal)) ∧ (∀ j, ∃ r : ℝ, a1 j = (r : EReal)) := by
  -- the result has one index; read the conjunction there
  have e := congrFun h ValueIdx.ix0
  unfold Cert.Pre_finite_inputs.fn at e
  dsimp only at e
  -- (all of a0 ∧ all of a1) ∧ all of a2
  obtain ⟨e01, -⟩ := IntOp.andi_eq_one.1 e
  obtain ⟨e0, e1⟩ := IntOp.andi_eq_one.1 e01
  -- a conjunction over a whole array that is true is true at each entry
  exact ⟨fun j => real_of_abs_lt _ (Host.reduce_andi_all _ _ _ _ _ e0 j),
    fun j => real_of_abs_lt _ (Host.reduce_andi_all _ _ _ _ _ e1 j)⟩

end Cert.KernelIdeal.Finite

end
-- ==== Proof.lean ====
/-
  A fake-quantised linear layer (8-bit, per-row absolute-maximum scaling) computed two ways.

  The kernel quantises each weight row once (a first region: integer levels, stored transposed, and the rows' steps), then,
  per block of 256 tokens, quantises the activations, multiplies the INTEGER levels, rescales the products by the token's
  step and the channel's step, adds the bias and quantises the output row. The reference dequantises both factors first
  (level · step), multiplies those, adds the bias and quantises the output row in the same way.

  On the extended reals both are the specification's row quantisation of an output row; the two output rows,
      ((∑_i a_i b_i) · s) · u + β     and     (∑_i (a_i s)(b_i u)) + β,
  agree when the levels a_i, b_i and the steps s, u are real numbers — distributivity —, which holds because the inputs are
  finite (the precondition): a row of finite entries has a real largest magnitude, its step max(·, 1e-5)/127 is a positive
  real, and a real divided by a nonzero real, rounded, is a real.

  The frames of the two kernel programs are generated; the reference's frame is its run with the result dropped; the
  idealisation rewrote nothing, so `preserves` is trivial.
-/
import proofs.«127962_j82489141887066_2_alg».proof.Defs
import proofs.«127962_j82489141887066_2_alg».proof.Proof.Gen.Kernel
import proofs.«127962_j82489141887066_2_alg».proof.Proof.Gen.Kernel.Skeleton
import proofs.«127962_j82489141887066_2_alg».proof.Proof.Gen.Kernel.Launch
import proofs.«127962_j82489141887066_2_alg».proof.Proof.Gen.Kernel.Points
import proofs.«127962_j82489141887066_2_alg».proof.Proof.Gen.Kernel.Frame
import proofs.«127962_j82489141887066_2_alg».proof.Proof.Gen.KernelIdeal
import proofs.«127962_j82489141887066_2_alg».proof.Proof.Gen.KernelIdeal.Skeleton
import proofs.«127962_j82489141887066_2_alg».proof.Proof.Gen.KernelIdeal.Launch
import proofs.«127962_j82489141887066_2_alg».proof.Proof.Gen.KernelIdeal.Points
import proofs.«127962_j82489141887066_2_alg».proof.Proof.Gen.KernelIdeal.Frame
import proofs.«127962_j82489141887066_2_alg».proof.Proof.Gen.ReferenceIdeal
import proofs.«127962_j82489141887066_2_alg».proof.Proof.Gen.Pre_finite_inputs
import proofs.«127962_j82489141887066_2_alg».proof.Proof.KernelValue
import proofs.«127962_j82489141887066_2_alg».proof.Proof.RefRunValue
import proofs.«127962_j82489141887066_2_alg».proof.Proof.RefSide
import proofs.«127962_j82489141887066_2_alg».proof.Proof.Finite
import Idealize.ShloMosaic.Adequacy
import Idealize.ShloMosaic.Init

noncomputable section

namespace Cert.Proof

open Idealize.ShloMosaic Idealize.ShloMosaic.TcCoe Idealize.SL.Sem Cert.FakeQuant

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- Both idealised programs end with the result array at the specification's value of the kernel's arguments: the kernel at the
    integer-product-first form, the reference at the dequantise-first form of ITS arguments, which are the kernel's; the two
    forms agree because the precondition makes every activation and every weight a real number. -/
theorem algebraic : Cert.algebraic_KernelIdeal_ReferenceIdeal := by
  intro m ρ m' ρ' hpre hagree
  refine ⟨fun c => outInt (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.RunValue.run (F := Ideal) m' ρ')
    rw [(hagree c).1, (hagree c).2.1, (hagree c).2.2, Cert.ReferenceIdeal.RefSide.ref_eq]
    obtain ⟨hx, hw⟩ := Cert.KernelIdeal.Finite.reals_of_fn _ _ _ (hpre c)
    exact (outInt_eq_outDeq _ _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
